-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x1024 : Shape := ⟨3, ![4096, 1, 1024]⟩
abbrev S4096x1x4096 : Shape := ⟨3, ![4096, 1, 4096]⟩
abbrev S4096x4096 : Shape := ⟨2, ![4096, 4096]⟩
abbrev S4096x1024 : Shape := ⟨2, ![4096, 1024]⟩
abbrev S12288x1024 : Shape := ⟨2, ![12288, 1024]⟩
abbrev S_ : Shape := ⟨0, ![]⟩

class Facts : Prop where
  bcast_S_S4096x1x1024 : S_.BroadcastsInDim S4096x1x1024 (![] : Fin 0 → Fin S4096x1x1024.rank)
  reducesTo_S4096x1x1024_S_d0_1_2 : S4096x1x1024.ReducesTo [0, 1, 2] S_
  h_S_ : 0 < S_.numel
  bcast_S_S4096x1x4096 : S_.BroadcastsInDim S4096x1x4096 (![] : Fin 0 → Fin S4096x1x4096.rank)
  reducesTo_S4096x1x4096_S_d0_1_2 : S4096x1x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S12288x1024 : S_.BroadcastsInDim S12288x1024 (![] : Fin 0 → Fin S12288x1024.rank)
  reducesTo_S12288x1024_S_d0_1 : S12288x1024.ReducesTo [0, 1] S_

variable [Facts]

def fn_part1 {F : FTy → Type} [FloatOps F] (main_arg4 : FVec F S12288x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S12288x1024 .f32 := Host.absf main_arg4
  let main_cst_6 : FVec F S_ .f32 := constant S_ .f32 0x7F800000#32
  let main_v20 : FVec F S12288x1024 .f32 := broadcastInDim S12288x1024 ![] bcast_S_S12288x1024 main_cst_6
  let main_v21 : IVec S12288x1024 1 := cmpf .olt main_v19 main_v20
  let main_c_7 : IVec S_ 1 := constantI S_ 1 1#1
  let main_v22 : IVec S_ 1 := (fun x v => Host.reduce IntOp.andi x v reducesTo_S12288x1024_S_d0_1 h_S_) main_v21 main_c_7
  let main_v23 : IVec S_ 1 := andi main_v18 main_v22
  main_v23

def fn {F : FTy → Type} [FloatOps F] (main_arg0 : FVec F S4096x1x1024 .f32) (main_arg1 : FVec F S4096x1x4096 .f32) (main_arg2 : FVec F S4096x4096 .f32) (main_arg3 : FVec F S4096x1024 .f32) (main_arg4 : FVec F S12288x1024 .f32) : IVec S_ 1 :=
  let main_v0 : FVec F S4096x1x1024 .f32 := Host.absf main_arg0
  let main_cst : FVec F S_ .f32 := constant S_ .f32 0x7F800000#32
  let main_v1 : FVec F S4096x1x1024 .f32 := broadcastInDim S4096x1x1024 ![] bcast_S_S4096x1x1024 main_cst
  let main_v2 : IVec S4096x1x1024 1 := cmpf .olt main_v0 main_v1
  let main_c : IVec S_ 1 := constantI S_ 1 1#1
  let main_v3 : IVec S_ 1 := (fun x v => Host.reduce IntOp.andi x v reducesTo_S4096x1x1024_S_d0_1_2 h_S_) main_v2 main_c
  let main_v4 : FVec F S4096x1x4096 .f32 := Host.absf main_arg1
  let main_cst_0 : FVec F S_ .f32 := constant S_ .f32 0x7F800000#32
  let main_v5 : FVec F S4096x1x4096 .f32 := broadcastInDim S4096x1x4096 ![] bcast_S_S4096x1x4096 main_cst_0
  let main_v6 : IVec S4096x1x4096 1 := cmpf .olt main_v4 main_v5
  let main_c_1 : IVec S_ 1 := constantI S_ 1 1#1
  let main_v7 : IVec S_ 1 := (fun x v => Host.reduce IntOp.andi x v reducesTo_S4096x1x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1x1024 : Shape := ⟨3, ![4096, 1, 1024]⟩
abbrev S4096x1x4096 : Shape := ⟨3, ![4096, 1, 4096]⟩
abbrev S4096x4096 : Shape := ⟨2, ![4096, 4096]⟩
abbrev S4096x1024 : Shape := ⟨2, ![4096, 1024]⟩
abbrev S12288x1024 : Shape := ⟨2, ![12288, 1024]⟩
abbrev S4096x1x2048 : Shape := ⟨3, ![4096, 1, 2048]⟩
abbrev S4096x2048 : Shape := ⟨2, ![4096, 2048]⟩
abbrev S2048x1024 : Shape := ⟨2, ![2048, 1024]⟩
abbrev S2048x2048 : Shape := ⟨2, ![2048, 2048]⟩
abbrev S6144x1024 : Shape := ⟨2, ![6144, 1024]⟩
abbrev S128x1024 : Shape := ⟨2, ![128, 1024]⟩
abbrev S128x2048 : Shape := ⟨2, ![128, 2048]⟩
abbrev S128x4096 : Shape := ⟨2, ![128, 4096]⟩
abbrev S128x6144 : Shape := ⟨2, ![128, 6144]⟩

abbrev nBuf : Space → Nat
  | .hbm => 16
  | .vmem => 9
  | .smem => 0
  | _ => 0

abbrev bufTy : (tb : Table) → Fin (tcTables nBuf tb) → BufTy
  | .hbm, ⟨0, _⟩ => ⟨S4096x1x1024, .f32⟩
  | .hbm, ⟨1, _⟩ => ⟨S4096x1x4096, .f32⟩
  | .hbm, ⟨2, _⟩ => ⟨S4096x4096, .f32⟩
  | .hbm, ⟨3, _⟩ => ⟨S4096x1024, .f32⟩
  | .hbm, ⟨4, _⟩ => ⟨S12288x1024, .f32⟩
  | .hbm, ⟨5, _⟩ => ⟨S4096x1024, .f32⟩
  | .hbm, ⟨6, _⟩ => ⟨S4096x1x2048, .f32⟩
  | .hbm, ⟨7, _⟩ => ⟨S4096x2048, .f32⟩
  | .hbm, ⟨8, _⟩ => ⟨S2048x1024, .f32⟩
  | .hbm, ⟨9, _⟩ => ⟨S2048x1024, .bf16⟩
  | .hbm, ⟨10, _⟩ => ⟨S2048x2048, .f32⟩
  | .hbm, ⟨11, _⟩ => ⟨S2048x2048, .bf16⟩
  | .hbm, ⟨12, _⟩ => ⟨S6144x1024, .f32⟩
  | .hbm, ⟨13, _⟩ => ⟨S6144x1024, .bf16⟩
  | .hbm, ⟨14, _⟩ => ⟨S4096x4096, .f32⟩
  | .hbm, ⟨15, _⟩ => ⟨S4096x1x4096, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S2048x1024, .bf16⟩
  | .local _ .vmem, ⟨5, _⟩ => ⟨S2048x2048, .bf16⟩
  | .local _ .vmem, ⟨6, _⟩ => ⟨S6144x1024, .bf16⟩
  | .local _ .vmem, ⟨7, _⟩ => ⟨S128x4096, .f32⟩
  | .local _ .vmem, ⟨8, _⟩ => ⟨S128x4096, .f32⟩
  | _, _ => ⟨S4096x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x1x1024_S4096x1024 : S4096x1x1024.ShapeCasts S4096x1024
  slices_S4096x1x4096_S4096x1x2048_0_0_0 : S4096x1x4096.Slices ![0, 0, 0] S4096x1x2048
  shapeCasts_S4096x1x2048_S4096x2048 : S4096x1x2048.ShapeCasts S4096x2048
  slices_S4096x1024_S2048x1024_0_0 : S4096x1024.Slices ![0, 0] S2048x1024
  bitsLt_bf16_f32 : FTy.bits .bf16 < FTy.bits .f32
  slices_S4096x4096_S2048x2048_0_0 : S4096x4096.Slices ![0, 0] S2048x2048
  slices_S12288x1024_S6144x1024_0_0 : S12288x1024.Slices ![0, 0] S6144x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  inb_S128x4096_S128x2048_0_0 : ∀ a, (![0, 0] : Fin 2 → Nat) a + S128x2048.size a ≤ S128x4096.size a
  inb_S128x4096_S128x2048_0_2048 : ∀ a, (![0, 2048] : Fin 2 → Nat) a + S128x2048.size a ≤ S128x4096.size a
  bcast_S4096x4096_S4096x1x4096_0_2 : S4096x4096.BroadcastsInDim S4096x1x4096 (![0, 2] : Fin 2 → Fin S4096x1x4096.rank)
  dot_S128x1024_S2048x1024_S128x2048_1_1_0_0_n_n_wf : DotDims.WF S128x1024 S2048x1024 S128x2048 [1] [1] [0] [0] [] []
  dot_S128x2048_S2048x2048_S128x2048_1_0_0_1_n_n_wf : DotDims.WF S128x2048 S2048x2048 S128x2048 [1] [0] [0] [1] [] []
  dot_S128x1024_S6144x1024_S128x6144_1_1_0_0_n_n_wf : DotDims.WF S128x1024 S6144x1024 S128x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x1024.size a ≤ S6144x1024.size a
  hwx0_4 : ∀ i : grid0.Coords, EltTy.bits .bf16 = 32 ∨ (Rect.block (s := S6144x1024) S6144x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x1024_S6144x1024_S128x6144_1_1_0_0_n_n : DotDims S128x1024 S6144x1024 S128x6144 where
  lhsContracting := [1]
  rhsContracting := [1]
  lhsNonContracting := [0]
  rhsNonContracting := [0]
  lhsBatch := []
  rhsBatch := []
  wf := dot_S128x1024_S6144x1024_S128x6144_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S6144x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1x1024 : Shape := ⟨3, ![4096, 1, 1024]⟩
abbrev S4096x1x4096 : Shape := ⟨3, ![4096, 1, 4096]⟩
abbrev S4096x4096 : Shape := ⟨2, ![4096, 4096]⟩
abbrev S4096x1024 : Shape := ⟨2, ![4096, 1024]⟩
abbrev S12288x1024 : Shape := ⟨2, ![12288, 1024]⟩
abbrev S4096x2048 : Shape := ⟨2, ![4096, 2048]⟩
abbrev S2048x1024 : Shape := ⟨2, ![2048, 1024]⟩
abbrev S1024x2048 : Shape := ⟨2, ![1024, 2048]⟩
abbrev S2048x2048 : Shape := ⟨2, ![2048, 2048]⟩
abbrev S6144x1024 : Shape := ⟨2, ![6144, 1024]⟩
abbrev S1024x6144 : Shape := ⟨2, ![1024, 6144]⟩
abbrev S4096x6144 : Shape := ⟨2, ![4096, 6144]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x1x1024, .f32⟩
  | .hbm, ⟨1, _⟩ => ⟨S4096x1x4096, .f32⟩
  | .hbm, ⟨2, _⟩ => ⟨S4096x4096, .f32⟩
  | .hbm, ⟨3, _⟩ => ⟨S4096x1024, .f32⟩
  | .hbm, ⟨4, _⟩ => ⟨S12288x1024, .f32⟩
  | .hbm, ⟨5, _⟩ => ⟨S4096x1024, .f32⟩
  | .hbm, ⟨6, _⟩ => ⟨S4096x4096, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S6144x1024, .f32⟩
  | .hbm, ⟨14, _⟩ => ⟨S1024x6144, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S_, .f32⟩
  | .hbm, ⟨19, _⟩ => ⟨S4096x6144, .f32⟩
  | .hbm, ⟨20, _⟩ => ⟨S4096x6144, .f32⟩
  | .hbm, ⟨21, _⟩ => ⟨S_, .f32⟩
  | .hbm, ⟨22, _⟩ => ⟨S4096x6144, .f32⟩
  | .hbm, ⟨23, _⟩ => ⟨S4096x6144, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .i1⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .i32⟩
  | .hbm, ⟨47, _⟩ => ⟨S_, .f32⟩
  | .hbm, ⟨48, _⟩ => ⟨S4096x4096, .f32⟩
  | .hbm, ⟨49, _⟩ => ⟨S4096x1x4096, .f32⟩
  | _, _ => ⟨S4096x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call1_v0 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  shapeCasts_S4096x1x1024_S4096x1024 : S4096x1x1024.ShapeCasts S4096x1024
  shapeCasts_S4096x1x4096_S4096x4096 : S4096x1x4096.ShapeCasts S4096x4096
  slices_S4096x4096_S4096x2048_0_0 : S4096x4096.Slices ![0, 0] S4096x2048
  slices_S4096x1024_S2048x1024_0_0 : S4096x1024.Slices ![0, 0] S2048x1024
  transposes_S2048x1024_S1024x2048_1_0 : S2048x1024.Transposes [1, 0] S1024x2048
  slices_S4096x4096_S2048x2048_0_0 : S4096x4096.Slices ![0, 0] S2048x2048
  slices_S12288x1024_S6144x1024_0_0 : S12288x1024.Slices ![0, 0] S6144x1024
  transposes_S6144x1024_S1024x6144_1_0 : S6144x1024.Transposes [1, 0] S1024x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)
  pads_S4096x2048_S4096x4096_000_020480 : S4096x2048.Pads (![0, 0] : Fin 2 → Nat) ![0, 2048] ![0, 0] S4096x4096
  h_S_ : 0 < S_.numel
  bcast_S4096x4096_S4096x1x4096_0_2 : S4096x4096.BroadcastsInDim S4096x1x4096 (![0, 2] : Fin 2 → Fin S4096x1x4096.rank)
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x1024_S1024x6144_S4096x6144_1_0_0_1_n_n_wf : DotDims.WF S4096x1024 S1024x6144 S4096x6144 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x1024_S1024x6144_S4096x6144_1_0_0_1_n_n : DotDims S4096x1024 S1024x6144 S4096x6144 where
  lhsContracting := [1]
  rhsContracting := [0]
  lhsNonContracting := [0]
  rhsNonContracting := [1]
  lhsBatch := []
  rhsBatch := []
  wf := dot_S4096x1024_S1024x6144_S4096x6144_1_0_0_1_n_n_wf

class Facts : Prop extends Facts₀ where

variable [Facts]
-- ==== Proof.KernelRead.lean ====
/-
  The kernel body's three matrix products and its three column slices, each read at one entry, on the extended reals.

  A matrix product accumulated into a zero block is, at entry (p, q), the plain sum over the contracted axis of the
  products of the two operands' entries: the zero word is the real 0 and 0 + Σ = Σ.  The input and gate products
  contract the LAST axis of both operands (the weights are stored row-per-output), the reservoir product contracts
  the state's last axis with the weights' first.  A slice of 2048 columns starting at column c reads column q + c.
-/
import proofs.«115664_j89781996355837_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The input product: x (128 × 1024) against the input weights (2048 × 1024), last axes contracted -/

theorem inputProd_lhs_row (i : S128x2048.Idx) (k : dot_S128x1024_S2048x1024_S128x2048_1_1_0_0_n_n.contr.Idx) :
    (dot_S128x1024_S2048x1024_S128x2048_1_1_0_0_n_n.lhsIdx i k 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
theorem inputProd_rhs_row (i : S128x2048.Idx) (k : dot_S128x1024_S2048x1024_S128x2048_1_1_0_0_n_n.contr.Idx) :
    (dot_S128x1024_S2048x1024_S128x2048_1_1_0_0_n_n.rhsIdx i k 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl

/-- Entry (p, q) of the input product is Σₖ x(p, k) · wi(q, k). -/
theorem inputProd_apply (a : FVec Ideal S128x1024 .bf16) (b : FVec Ideal S2048x1024 .bf16) (p : Fin 128) (q : Fin 2048) :
    FloatOps.matmul dot_S128x1024_S2048x1024_S128x2048_1_1_0_0_n_n none a b (constant (F := Ideal) S128x2048 .f32 0x00000000#32) (ix2 p q)
      = ∑ k : Fin 1024, a (ix2 p k) * b (ix2 q k) := by
  rw [Ideal.matmul_constant_zero_apply, ← Equiv.sum_comp (contrEquiv1 dot_S128x1024_S2048x1024_S128x2048_1_1_0_0_n_n 1024 rfl rfl).symm]
  refine Finset.sum_congr rfl fun k _ => ?_
  have hk := contrEquiv1_symm_val dot_S128x1024_S2048x1024_S128x2048_1_1_0_0_n_n 1024 rfl rfl k
  have el : dot_S128x1024_S2048x1024_S128x2048_1_1_0_0_n_n.lhsIdx (ix2 p q) ((contrEquiv1 dot_S128x1024_S2048x1024_S128x2048_1_1_0_0_n_n 1024 rfl rfl).symm k) = ix2 p k := funext fun d => Fin.ext (by
    match d with
    | ⟨0, _⟩ => exact inputProd_lhs_row _ _
    | ⟨1, _⟩ => exact (dot_S128x1024_S2048x1024_S128x2048_1_1_0_0_n_n.lhsIdx_val_of_single rfl _ _).trans hk)
  have er : dot_S128x1024_S2048x1024_S128x2048_1_1_0_0_n_n.rhsIdx (ix2 p q) ((contrEquiv1 dot_S128x1024_S2048x1024_S128x2048_1_1_0_0_n_n 1024 rfl rfl).symm k) = ix2 q k := funext fun d => Fin.ext (by
    match d with
    | ⟨0, _⟩ => exact inputProd_rhs_row _ _
    | ⟨1, _⟩ => exact (dot_S128x1024_S2048x1024_S128x2048_1_1_0_0_n_n.rhsIdx_val_of_single rfl _ _).trans hk)
  rw [el, er]

/-! ## The reservoir product: the state (128 × 2048) against the reservoir weights (2048 × 2048) -/

theorem stateProd_lhs_row (i : S128x2048.Idx) (k : dot_S128x2048_S2048x2048_S128x2048_1_0_0_1_n_n.contr.Idx) :
    (dot_S128x2048_S2048x2048_S128x2048_1_0_0_1_n_n.lhsIdx i k 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem stateProd_rhs_col (i : S128x2048.Idx) (k : dot_S128x2048_S2048x2048_S128x2048_1_0_0_1_n_n.contr.Idx) :
    (dot_S128x2048_S2048x2048_S128x2048_1_0_0_1_n_n.rhsIdx i k 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- Entry (p, q) of the reservoir product is Σₖ s(p, k) · wr(k, q). -/
theorem stateProd_apply (a : FVec Ideal S128x2048 .bf16) (b : FVec Ideal S2048x2048 .bf16) (p : Fin 128) (q : Fin 2048) :
    FloatOps.matmul dot_S128x2048_S2048x2048_S128x2048_1_0_0_1_n_n none a b (constant (F := Ideal) S128x2048 .f32 0x00000000#32) (ix2 p q)
      = ∑ k : Fin 2048, a (ix2 p k) * b (ix2 k q) := by
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun d => Fin.ext (by
    match d with
    | ⟨0, _⟩ => exact stateProd_lhs_row _ _
    | ⟨1, _⟩ => exact (dot_S128x2048_S2048x2048_S128x2048_1_0_0_1_n_n.lhsIdx_val_of_single rfl _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun d => Fin.ext (by
    match d with
    | ⟨0, _⟩ => exact (dot_S128x2048_S2048x2048_S128x2048_1_0_0_1_n_n.rhsIdx_val_of_single rfl _ _).trans hk
    | ⟨1, _⟩ => exact stateProd_rhs_col _ _)
  rw [el, er]

/-! ## The gate product: x (128 × 1024) against the gate weights (6144 × 1024), last axes contracted -/

theorem gateProd_lhs_row (i : S128x6144.Idx) (k : dot_S128x1024_S6144x1024_S128x6144_1_1_0_0_n_n.contr.Idx) :
    (dot_S128x1024_S6144x1024_S128x6144_1_1_0_0_n_n.lhsIdx i k 0).val = (i 0).val := by
  unfold DotDims.lhsIdx
  rw [dif_neg (show ¬(0 : Fin S128x1024.rank) ∈ dot_S128x1024_S6144x1024_S128x6144_1_1_0_0_n_n.lhsBatch by decide), dif_pos (show (0 : Fin S128x1024.rank) ∈ dot_S128x1024_S6144x1024_S128x6144_1_1_0_0_n_n.lhsNonContracting by decide)]
  rfl
theorem gateProd_rhs_row (i : S128x6144.Idx) (k : dot_S128x1024_S6144x1024_S128x6144_1_1_0_0_n_n.contr.Idx) :
    (dot_S128x1024_S6144x1024_S128x6144_1_1_0_0_n_n.rhsIdx i k 0).val = (i 1).val := by
  unfold DotDims.rhsIdx
  rw [dif_neg (show ¬(0 : Fin S6144x1024.rank) ∈ dot_S128x1024_S6144x1024_S128x6144_1_1_0_0_n_n.rhsBatch by decide), dif_pos (show (0 : Fin S6144x1024.rank) ∈ dot_S128x1024_S6144x1024_S128x6144_1_1_0_0_n_n.rhsNonContracting by decide)]
  rfl

/-- Entry (p, n) of the gate product is Σₖ x(p, k) · wg(n, k). -/
theorem gateProd_apply (a : FVec Ideal S128x1024 .bf16) (b : FVec Ideal S6144x1024 .bf16) (p : Fin 128) (n : Fin 6144) :
    FloatOps.matmul dot_S128x1024_S6144x1024_S128x6144_1_1_0_0_n_n none a b (constant (F := Ideal) S128x6144 .f32 0x00000000#32) (ix2 p n)
      = ∑ k : Fin 1024, a (ix2 p k) * b (ix2 n k) := by
  rw [Ideal.matmul_constant_zero_apply, ← Equiv.sum_comp (contrEquiv1 dot_S128x1024_S6144x1024_S128x6144_1_1_0_0_n_n 1024 rfl rfl).symm]
  refine Finset.sum_congr rfl fun k _ => ?_
  have hk := contrEquiv1_symm_val dot_S128x1024_S6144x1024_S128x6144_1_1_0_0_n_n 1024 rfl rfl k
  have el : dot_S128x1024_S6144x1024_S128x6144_1_1_0_0_n_n.lhsIdx (ix2 p n) ((contrEquiv1 dot_S128x1024_S6144x1024_S128x6144_1_1_0_0_n_n 1024 rfl rfl).symm k) = ix2 p k := funext fun d => Fin.ext (by
    match d with
    | ⟨0, _⟩ => exact gateProd_lhs_row _ _
    | ⟨1, _⟩ => exact (dot_S128x1024_S6144x1024_S128x6144_1_1_0_0_n_n.lhsIdx_val_of_single rfl _ _).trans hk)
  have er : dot_S128x1024_S6144x1024_S128x6144_1_1_0_0_n_n.rhsIdx (ix2 p n) ((contrEquiv1 dot_S128x1024_S6144x1024_S128x6144_1_1_0_0_n_n 1024 rfl rfl).symm k) = ix2 n k := funext fun d => Fin.ext (by
    match d with
    | ⟨0, _⟩ => exact gateProd_rhs_row _ _
    | ⟨1, _⟩ => exact (dot_S128x1024_S6144x1024_S128x6144_1_1_0_0_n_n.rhsIdx_val_of_single rfl _ _).trans hk)
  rw [el, er]

/-! ## The three gate groups: 2048 columns of the 6144 starting at column 0, 2048, 4096 -/

/-- The slice starting at column `c` reads column `q + c`. -/
theorem gateSlice_apply {α : Type} (c : Nat) (hc : c + 2048 ≤ 6144) (v : S128x6144.Idx → α) (h : S128x6144.Slices ![0, c] S128x2048)
    (p : Fin 128) (q : Fin 2048) :
    extractStridedSlice S128x2048 ![0, c] v h (ix2 p q) = v (ix2 p ⟨q.val + c, by have := q.isLt; omega⟩) :=
  extractStridedSlice_apply ![0, c] v h (ix2 p q) (ix2 p ⟨q.val + c, by have := q.isLt; omega⟩) (fun d => by
    match d with
    | ⟨0, _⟩ => show p.val = 0 + p.val; omega
    | ⟨1, _⟩ => show q.val + c = c + q.val; omega)

end Cert.KernelIdeal.Hand

end
-- ==== Proof.Cell.lean ====
/-
  One step of a gated leaky-reservoir cell, as a function on the extended reals.

  For one batch row the inputs are the row `x` of the input (1024 entries), the row `s` of the previous state (2048
  entries), and three weight matrices: `wi` (2048 × 1024, input weights), `wr` (2048 × 2048, reservoir weights) and
  `wg` (6144 × 1024, gate weights, three stacked groups of 2048 rows: input gate, forget gate, output gate).  Entry
  `j` of the new state is

      v  =  o_j · ( c₀ · (f_j · s_j)  +  c₁ · tanh ( i_j · ( Σₖ x_k · wi_{j,k}  +  Σₖ s_k · wr_{k,j} ) ) )
      out = if v > ½ then v − ½ else v

  where `i_j, f_j, o_j` are the logistic function of `Σₖ x_k · wg_{n,k}` at `n = j, j + 2048, j + 4096`, and `c₀, c₁`
  are the two single-precision constants nearest 0.9 and 0.1, kept as their binary words (both programs carry the
  same words, so their values are never needed).  The state is then padded with zeros to 4096 entries.

  Sums over an index set are unordered on the extended reals (addition is commutative and associative there), so a
  matrix product accumulated from zero and a contraction without accumulator are the same sum.
-/
import Idealize.ShloMosaic.PureOps.Ideal
import Idealize.ShloMosaic.Lib.ValueIdx

noncomputable section

namespace Cert.Cell

open Idealize.ShloMosaic

/-- The logistic function of row `n` of the gate weights applied to the input row. -/
def gate (x : Fin 1024 → EReal) (wg : Fin 6144 → Fin 1024 → EReal) (n : Fin 6144) : EReal :=
  Ideal.logistic (∑ k : Fin 1024, x k * wg n k)

/-- What drives entry `j`: the input row through the input weights plus the state row through the reservoir weights. -/
def drive (x : Fin 1024 → EReal) (s : Fin 2048 → EReal) (wi : Fin 2048 → Fin 1024 → EReal)
    (wr : Fin 2048 → Fin 2048 → EReal) (j : Fin 2048) : EReal :=
  (∑ k : Fin 1024, x k * wi j k) + ∑ k : Fin 2048, s k * wr k j

/-- The gated leaky update of entry `j`, before the threshold. -/
def leaky (x : Fin 1024 → EReal) (s : Fin 2048 → EReal) (wi : Fin 2048 → Fin 1024 → EReal)
    (wr : Fin 2048 → Fin 2048 → EReal) (wg : Fin 6144 → Fin 1024 → EReal) (j : Fin 2048) : EReal :=
  gate x wg ⟨j.val + 4096, by have := j.isLt; omega⟩
    * (Ideal.ofBits .f32 0x3F666666#32 * (gate x wg ⟨j.val + 2048, by have := j.isLt; omega⟩ * s j)
        + Ideal.ofBits .f32 0x3DCCCCCD#32
          * Ideal.tanh (gate x wg ⟨j.val, by have := j.isLt; omega⟩ * drive x s wi wr j))

/-- The spike threshold: a value above one half is lowered by one half. -/
def spike (v : EReal) : EReal :=
  Scalar.select (FloatOps.cmpf (F := Ideal) (φ := .f32) .ogt v (Ideal.ofBits .f32 0x3F000000#32))
    (v - Ideal.ofBits .f32 0x3F000000#32) v

/-- Entry `j` of the new state of one batch row. -/
def next (x : Fin 1024 → EReal) (s : Fin 2048 → EReal) (wi : Fin 2048 → Fin 1024 → EReal)
    (wr : Fin 2048 → Fin 2048 → EReal) (wg : Fin 6144 → Fin 1024 → EReal) (j : Fin 2048) : EReal :=
  spike (leaky x s wi wr wg j)

/-! ## The whole result as one array -/

open Idealize.ShloMosaic.ValueIdx

/-- The padded new state of all 4096 batch rows as one 4096 × 4096 array: row `b`, column `j < 2048` is entry `j` of
    the new state of batch row `b` (from row `b` of the input array `X` and of the state array `S` and the three weight
    arrays); columns 2048 and beyond are zero. -/
def padded (X : (⟨2, ![4096, 1024]⟩ : Shape).Idx → EReal) (S : (⟨2, ![4096, 2048]⟩ : Shape).Idx → EReal)
    (Wi : (⟨2, ![2048, 1024]⟩ : Shape).Idx → EReal) (Wr : (⟨2, ![2048, 2048]⟩ : Shape).Idx → EReal)
    (Wg : (⟨2, ![6144, 1024]⟩ : Shape).Idx → EReal) : (⟨2, ![4096, 4096]⟩ : Shape).Idx → EReal := fun i =>
  if h : (i 1).val < 2048 then
    next (fun k => X (ix2 ⟨(i 0).val, (i 0).isLt⟩ k)) (fun k => S (ix2 ⟨(i 0).val, (i 0).isLt⟩ k))
      (fun j k => Wi (ix2 j k)) (fun k j => Wr (ix2 k j)) (fun n k => Wg (ix2 n k)) ⟨(i 1).val, h⟩
  else 0

variable (X : (⟨2, ![4096, 1024]⟩ : Shape).Idx → EReal) (S : (⟨2, ![4096, 2048]⟩ : Shape).Idx → EReal)
    (Wi : (⟨2, ![2048, 1024]⟩ : Shape).Idx → EReal) (Wr : (⟨2, ![2048, 2048]⟩ : Shape).Idx → EReal)
    (Wg : (⟨2, ![6144, 1024]⟩ : Shape).Idx → EReal)

/-- A column below 2048 holds the new state. -/
theorem padded_state (b : Fin 4096) (j : Fin 4096) (h : j.val < 2048) :
    padded X S Wi Wr Wg (ix2 b j)
      = next (fun k => X (ix2 b k)) (fun k => S (ix2 b k)) (fun j k => Wi (ix2 j k)) (fun k j => Wr (ix2 k j))
          (fun n k => Wg (ix2 n k)) ⟨j.val, h⟩ := by
  unfold padded
  rw [dif_pos (show ((ix2 b j : (⟨2, ![4096, 4096]⟩ : Shape).Idx) 1).val < 2048 from h)]

/-- A column from 2048 on holds zero. -/
theorem padded_zero (b : Fin 4096) (j : Fin 4096) (h : ¬ j.val < 2048) : padded X S Wi Wr Wg (ix2 b j) = 0 := by
  unfold padded
  rw [dif_neg (show ¬ ((ix2 b j : (⟨2, ![4096, 4096]⟩ : Shape).Idx) 1).val < 2048 from h)]

end Cert.Cell

end
-- ==== Proof.KernelCell.lean ====
/-
  What the kernel body stores, read at one entry: entry (p, q) of the 128 × 2048 value stored into the left half of
  the output block is entry `q` of the new state of the block's row `p` — the cell function of row `p` of the input
  block and of the state block and of the three resident weight blocks.  The roundings to half precision before the
  three matrix products are the identity on the extended reals.  The value stored into the right half is zero.
-/
import proofs.«115664_j89781996355837_1_alg».proof.Proof.Gen.KernelIdeal.Skeleton
import proofs.«115664_j89781996355837_1_alg».proof.Proof.KernelRead
import proofs.«115664_j89781996355837_1_alg».proof.Proof.Cell
import Idealize.ShloMosaic.Lib.IdealHost

noncomputable section

namespace Cert.KernelIdeal.Hand

open Idealize.ShloMosaic Idealize.ShloMosaic.ValueIdx Cert.KernelIdeal Cert.KernelIdeal.Gen

/-- Entry (p, q) of the stored new-state block. -/
theorem stored_apply (x : FVec Ideal S128x1024 .f32) (s : FVec Ideal S128x2048 .f32) (wi : FVec Ideal S2048x1024 .bf16)
    (wr : FVec Ideal S2048x2048 .bf16) (wg : FVec Ideal S6144x1024 .bf16) (p : Fin 128) (q : Fin 2048) :
    k0_pay1 (F := Ideal) x s wi wr wg (ix2 p q)
      = Cell.next (fun k => x (ix2 p k)) (fun k => s (ix2 p k)) (fun j k => wi (ix2 j k)) (fun k j => wr (ix2 k j))
          (fun n k => wg (ix2 n k)) q := by
  unfold k0_pay1
  simp only [shapeCast_self, select_apply, cmpf_apply, subf_apply, mulf_apply, addf_apply, broadcast_apply,
    Idealize.ShloMosaic.tanh, Idealize.ShloMosaic.logistic,
    gateSlice_apply 0 (by decide), gateSlice_apply 2048 (by decide), gateSlice_apply 4096 (by decide),
    inputProd_apply, stateProd_apply, gateProd_apply, truncf_apply, Nat.add_zero]
  simp only [Cell.next, Cell.spike, Cell.leaky, Cell.drive, Cell.gate, Ideal.ofBits_def, Ideal.logistic_def, Ideal.tanh_def]

/-- The value stored into the right half of the output block is zero everywhere. -/
theorem zeros_apply (y : S128x2048.Idx) : k0_pay2 (F := Ideal) y = 0 := by
  unfold k0_pay2
  show Ideal.ofBits .f32 0x00000000#32 = 0
  exact Ideal.ofBits_zero_f32

end Cert.KernelIdeal.Hand

end
-- ==== Proof.KernelBlock.lean ====
/-
  The output block after the body, read at one entry.  The body writes the 128 × 4096 block with two stores: the new
  state into columns 0 … 2047 and zeros into columns 2048 … 4095; together they cover the block.  So entry (p, q) of
  the block is entry `q` of the new state of row `p` when q < 2048, and zero otherwise — the last store does not reach
  a column below 2048, and the first is read where it was written.
-/
import proofs.«115664_j89781996355837_1_alg».proof.Proof.Gen.KernelIdeal.Frame
import proofs.«115664_j89781996355837_1_alg».proof.Proof.KernelCell
import Idealize.ShloMosaic.Lib.Pipeline.Value

noncomputable section

namespace Cert.KernelIdeal.Hand

open Idealize.ShloMosaic Idealize.ShloMosaic.ValueIdx Cert.KernelIdeal Cert.KernelIdeal.Gen

theorem zeroOffsets : (![0, 0] : Fin 2 → Nat) = fun _ => 0 := funext fun a => by fin_cases a <;> rfl

/-- A 128 × 4096 block written by two stores, `w1` into columns 0 … 2047 and then `w0` into columns 2048 … 4095, read at
    entry (p, q): the left store's entry (p, q) when q < 2048, the right store's entry (p, q − 2048) otherwise. -/
theorem halves_apply (w0 : r0_6.shape.Idx → Elt Ideal .f32) (w1 : r0_5.shape.Idx → Elt Ideal .f32) (p : Fin 128) (q : Fin 4096) :
    View.canon ([⟨r0_6, w0⟩, ⟨r0_5, w1⟩] : List (View.Piece (Elt Ideal) S128x4096 .f32)) (ix2 p q)
      = if h : q.val < 2048 then w1 (ix2 p ⟨q.val, h⟩) else w0 (ix2 p ⟨q.val - 2048, by have := q.isLt; omega⟩) := by
  by_cases h : q.val < 2048
  · rw [dif_pos h]
    have hout : (ix2 p q : S128x4096.Idx) ∉ r0_6.set := by
      rw [Rect.mem_set_unit]
      intro hm
      have h1 : 2048 ≤ q.val ∧ q.val < 2048 + 2048 := hm 1
      omega
    have he : (ix2 p q : S128x4096.Idx) = r0_5.emb (ix2 p ⟨q.val, h⟩) := funext fun a => Fin.ext (by
      match a with
      | ⟨0, _⟩ => show p.val = 0 + 1 * p.val; omega
      | ⟨1, _⟩ => show q.val = 0 + 1 * q.val; omega)
    refine (View.canon_cons_of_not_mem (⟨r0_6, w0⟩ : View.Piece (Elt Ideal) S128x4096 .f32) [⟨r0_5, w1⟩] hout).trans ?_
    refine (congrArg _ he).trans ?_
    exact View.canon_cons_emb r0_5 w1 [] (ix2 p ⟨q.val, h⟩)
  · rw [dif_neg h]
    have he : (ix2 p q : S128x4096.Idx) = r0_6.emb (ix2 p ⟨q.val - 2048, by have := q.isLt; omega⟩) := funext fun a => Fin.ext (by
      match a with
      | ⟨0, _⟩ => show p.val = 0 + 1 * p.val; omega
      | ⟨1, _⟩ => show q.val = 2048 + 1 * (q.val - 2048); omega)
    refine (congrArg _ he).trans ?_
    exact View.canon_cons_emb r0_6 w0 [⟨r0_5, w1⟩] (ix2 p ⟨q.val - 2048, by have := q.isLt; omega⟩)

/-- Entry (p, q) of the output block, from the five input blocks. -/
theorem block_apply (x : FVec Ideal S128x1024 .f32) (s : FVec Ideal S128x2048 .f32) (wi : FVec Ideal S2048x1024 .bf16)
    (wr : FVec Ideal S2048x2048 .bf16) (wg : FVec Ideal S6144x1024 .bf16) (p : Fin 128) (q : Fin 4096) :
    out0_5 (F := Ideal) x s wi wr wg (ix2 p q)
      = if h : q.val < 2048 then
          Cell.next (fun k => x (ix2 p k)) (fun k => s (ix2 p k)) (fun j k => wi (ix2 j k)) (fun k j => wr (ix2 k j))
            (fun n k => wg (ix2 n k)) ⟨q.val, h⟩
        else 0 := by
  unfold out0_5
  rw [View.ld_unit_zero (S := S128x1024) zeroOffsets, View.ld_unit_zero (S := S128x2048) zeroOffsets,
    View.ld_unit_zero (S := S2048x1024) zeroOffsets, View.ld_unit_zero (S := S2048x2048) zeroOffsets,
    View.ld_unit_zero (S := S6144x1024) zeroOffsets]
  refine (halves_apply _ _ p q).trans ?_
  by_cases h : q.val < 2048
  · rw [dif_pos h, dif_pos h]
    exact stored_apply x s wi wr wg p ⟨q.val, h⟩
  · rw [dif_neg h, dif_neg h]
    exact zeros_apply _

end Cert.KernelIdeal.Hand

end
-- ==== Proof.KernelArray.lean ====
/-
  From blocks to the whole array.  The grid has 32 points; at point `t` the input and state windows hold rows
  128·t … 128·t + 127 of their arrays, the three weight windows hold their whole arrays, and the output window's
  block is rows 128·t … 128·t + 127, all 4096 columns, of the result.  What point `t` writes back is therefore that
  block of ONE array — the padded new state of all rows, as a function of the five arrays the region finds — and the 32
  blocks cover the result, so the result array ends holding that function.
-/
import proofs.«115664_j89781996355837_1_alg».proof.Proof.Gen.KernelIdeal.Frame
import proofs.«115664_j89781996355837_1_alg».proof.Proof.KernelBlock
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The five arrays as the region finds them. -/
def arrX (c : Dev nD) : S4096x1024.Idx → EReal := V m c main_v0
def arrS (c : Dev nD) : S4096x2048.Idx → EReal := V m c main_v2
def arrWi (c : Dev nD) : S2048x1024.Idx → EReal := V m c main_v4
def arrWr (c : Dev nD) : S2048x2048.Idx → EReal := V m c main_v6
def arrWg (c : Dev nD) : S6144x1024.Idx → EReal := V m c main_v8

/-- The padded new state of all rows, from those arrays. -/
def result (c : Dev nD) : S4096x4096.Idx → EReal :=
  Cell.padded (arrX m c) (arrS m c) (arrWi m c) (arrWr m c) (arrWg m c)

theorem point_lt (t : Fin cfg0.N) : t.val < 32 := lt_of_lt_of_eq t.isLt N_0

/-- The block indices over the grid: the batch windows move with the point along the rows, the weights stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

theorem blockX (c : Dev nD) (t : Fin cfg0.N) (p : Fin 128) :
    (fun k : Fin 1024 => (iblk m c 0 t : FVec Ideal S128x1024 .f32) (ix2 p k))
      = fun k => arrX m c (ix2 ⟨t.val * 128 + p.val, by have := point_lt t; have := p.isLt; omega⟩ k) := by
  obtain ⟨h0, h1, -⟩ := index_facts t
  funext k
  unfold iblk arrX
  rw [View.read_apply]
  show V m c main_v0 _ = V m c main_v0 _
  refine congrArg (V m c main_v0) (funext fun a => Fin.ext ?_)
  match a with
  | ⟨0, _⟩ => show win0_0.index t (0 : Fin 2) * 128 + 1 * p.val = t.val * 128 + p.val; rw [h0]; omega
  | ⟨1, _⟩ => show win0_0.index t (1 : Fin 2) * 1024 + 1 * k.val = k.val; rw [h1]; omega

theorem blockS (c : Dev nD) (t : Fin cfg0.N) (p : Fin 128) :
    (fun k : Fin 2048 => (iblk m c 1 t : FVec Ideal S128x2048 .f32) (ix2 p k))
      = fun k => arrS m c (ix2 ⟨t.val * 128 + p.val, by have := point_lt t; have := p.isLt; omega⟩ k) := by
  obtain ⟨-, -, h0, h1, -⟩ := index_facts t
  funext k
  unfold iblk arrS
  rw [View.read_apply]
  show V m c main_v2 _ = V m c main_v2 _
  refine congrArg (V m c main_v2) (funext fun a => Fin.ext ?_)
  match a with
  | ⟨0, _⟩ => show win0_1.index t (0 : Fin 2) * 128 + 1 * p.val = t.val * 128 + p.val; rw [h0]; omega
  | ⟨1, _⟩ => show win0_1.index t (1 : Fin 2) * 2048 + 1 * k.val = k.val; rw [h1]; omega

theorem blockWi (c : Dev nD) (t : Fin cfg0.N) :
    (fun (j : Fin 2048) (k : Fin 1024) => (iblk m c 2 t : FVec Ideal S2048x1024 .bf16) (ix2 j k))
      = fun j k => arrWi m c (ix2 j k) := by
  obtain ⟨-, -, -, -, h0, h1, -⟩ := index_facts t
  funext j k
  unfold iblk arrWi
  rw [View.read_apply]
  show V m c main_v4 _ = V m c main_v4 _
  refine congrArg (V m c main_v4) (funext fun a => Fin.ext ?_)
  match a with
  | ⟨0, _⟩ => show win0_2.index t (0 : Fin 2) * 2048 + 1 * j.val = j.val; rw [h0]; omega
  | ⟨1, _⟩ => show win0_2.index t (1 : Fin 2) * 1024 + 1 * k.val = k.val; rw [h1]; omega

theorem blockWr (c : Dev nD) (t : Fin cfg0.N) :
    (fun (k : Fin 2048) (j : Fin 2048) => (iblk m c 3 t : FVec Ideal S2048x2048 .bf16) (ix2 k j))
      = fun k j => arrWr m c (ix2 k j) := by
  obtain ⟨-, -, -, -, -, -, h0, h1, -⟩ := index_facts t
  funext k j
  unfold iblk arrWr
  rw [View.read_apply]
  show V m c main_v6 _ = V m c main_v6 _
  refine congrArg (V m c main_v6) (funext fun a => Fin.ext ?_)
  match a with
  | ⟨0, _⟩ => show win0_3.index t (0 : Fin 2) * 2048 + 1 * k.val = k.val; rw [h0]; omega
  | ⟨1, _⟩ => show win0_3.index t (1 : Fin 2) * 2048 + 1 * j.val = j.val; rw [h1]; omega

theorem blockWg (c : Dev nD) (t : Fin cfg0.N) :
    (fun (n : Fin 6144) (k : Fin 1024) => (iblk m c 4 t : FVec Ideal S6144x1024 .bf16) (ix2 n k))
      = fun n k => arrWg m c (ix2 n k) := by
  obtain ⟨-, -, -, -, -, -, -, -, h0, h1, -⟩ := index_facts t
  funext n k
  unfold iblk arrWg
  rw [View.read_apply]
  show V m c main_v8 _ = V m c main_v8 _
  refine congrArg (V m c main_v8) (funext fun a => Fin.ext ?_)
  match a with
  | ⟨0, _⟩ => show win0_4.index t (0 : Fin 2) * 6144 + 1 * n.val = n.val; rw [h0]; omega
  | ⟨1, _⟩ => show win0_4.index t (1 : Fin 2) * 1024 + 1 * k.val = k.val; rw [h1]; omega

/-! ## What a point writes back, the cover, the array -/

/-- What point `t` writes back is block `t` of `result`. -/
theorem flushed_eq (c : Dev nD) (t : Fin cfg0.N) :
    (dats m 0 c).flushed 5 t = ((cfg0.win 5).blk t).view.read (Elt Ideal) (result m c) := by
  obtain ⟨-, -, -, -, -, -, -, -, -, -, h50, h51⟩ := index_facts t
  show (cfg0.win 5).cut (grid0.coords t) ((dats m 0 c).after 5 t) = _
  rw [after0_5]
  funext y
  obtain ⟨p, q, rfl⟩ : ∃ (p : Fin 128) (q : Fin 4096), y = ix2 p q := ⟨y 0, y 1, eq_ix2 y⟩
  rw [View.read_apply]
  have he : ((cfg0.win 5).blk t).view.emb (ix2 p q)
      = (ix2 ⟨t.val * 128 + p.val, by have := point_lt t; have := p.isLt; omega⟩ q : S4096x4096.Idx) := funext fun a => Fin.ext (by
    match a with
    | ⟨0, _⟩ => show win0_5.index t (0 : Fin 2) * 128 + 1 * p.val = t.val * 128 + p.val; rw [h50]; omega
    | ⟨1, _⟩ => show win0_5.index t (1 : Fin 2) * 4096 + 1 * q.val = q.val; rw [h51]; omega)
  rw [he]
  refine (block_apply (iblk m c 0 t) (iblk m c 1 t) (iblk m c 2 t) (iblk m c 3 t) (iblk m c 4 t) p q).trans ?_
  show _ = result m c _
  unfold result
  by_cases h : q.val < 2048
  · rw [dif_pos h, Cell.padded_state _ _ _ _ _ _ q h, blockX m c t p, blockS m c t p, blockWi m c t, blockWr m c t, blockWg m c t]
  · rw [dif_neg h, Cell.padded_zero _ _ _ _ _ _ q h]

/-- An index of the result is in point `t`'s block iff each coordinate is in the block's range. -/
theorem mem_block (t : Fin cfg0.N) (i : S4096x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v9).slice (win0_5.rect t)).set ↔ _
  rw [View.set_slice_whole, Rect.mem_set_unit]
  exact Iff.rfl

/-- Row `r` of the result is in the block of point `r / 128`. -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ : ∃ t : Fin cfg0.N, t.val = (i 0).val / 128 :=
    ⟨⟨(i 0).val / 128, by rw [show cfg0.N = 32 from N_0]; omega⟩, rfl⟩
  obtain ⟨-, -, -, -, -, -, -, -, -, -, h50, h51⟩ := index_facts t
  refine ⟨t, flush0_5 t, ?_⟩
  rw [mem_block]
  intro a
  match a with
  | ⟨0, _⟩ =>
    show win0_5.index t (0 : Fin 2) * 128 ≤ (i 0).val ∧ (i 0).val < win0_5.index t (0 : Fin 2) * 128 + 128
    rw [h50, ht]; omega
  | ⟨1, _⟩ =>
    show win0_5.index t (1 : Fin 2) * 4096 ≤ (i 1).val ∧ (i 1).val < win0_5.index t (1 : Fin 2) * 4096 + 4096
    rw [h51]; omega

/-- The result array after the run. -/
theorem final (c : Dev nD) : (dats m 0 c).arrAt 5 cfg0.N = result m c :=
  (dats m 0 c).arrAt_eq_of_cover 5 (result m c) (fun t _ => flushed_eq m c t) covered

end Cert.KernelIdeal.Hand

end
-- ==== Proof.KernelRun.lean ====
/-
  The kernel program's run with its result named.  After the call one host line inserts a unit axis into the result
  array (4096 × 4096 → 4096 × 1 × 4096); the program's result is that line applied to the array the call leaves,
  which is the padded new state of all rows.  The argument arrays end as they began.
-/
import proofs.«115664_j89781996355837_1_alg».proof.Proof.Gen.KernelIdeal.Frame
import proofs.«115664_j89781996355837_1_alg».proof.Proof.KernelArray
import Idealize.ShloMosaic.Lib.StableHlo.Run

noncomputable section

namespace Cert.KernelIdeal.Hand

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- The program's result: the result array with a unit axis inserted. -/
def output (c : Dev nD) : S4096x1x4096.Idx → EReal :=
  broadcastInDim S4096x1x4096 ![0, 2] bcast_S4096x4096_S4096x1x4096_0_2 (result m c)

/-- The host line after the call reads the array the call left. -/
theorem tail_eq (c : Dev nD) :
    Pipeline.afterTail₀ cfgs (dats m) 0 (V0 m) [hostOps1] c main_v10 = output m c := by
  unfold Pipeline.afterTail₀ output
  show StableHlo.after hostOps1 _ (Proc.devRef .tc main_v10) = _
  after_results
  exact congrArg (broadcastInDim S4096x1x4096 ![0, 2] bcast_S4096x4096_S4096x1x4096_0_2)
    ((Pipeline.withArrays_arr spec0 launch0.win.arr_inj c (V0 m c) (fun w => (dats m 0 c).arrAt w cfg0.N) 5).trans (final m c))

/-- Every weakly fair execution terminates with the result at `output` and the arguments unchanged. -/
theorem run : θ_run defs (onTc (τ := τ) (main (F := Ideal))) ⟨m, fun _ => 0, ρ⟩ (fun r => ∀ c : Dev nD,
      r.2.mem ((c.tc : Thread nD τ).loc main_v10) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.KernelEntry.lean ====
/-
  What the region finds in the five arrays its windows read: the host lines before the call reshape the input to
  4096 × 1024, slice the state to its first 2048 columns and reshape it to 4096 × 2048, and slice the three weight
  arrays to their active rows and columns (rounding them to half precision, which changes nothing on the extended reals).
-/
import proofs.«115664_j89781996355837_1_alg».proof.Proof.Gen.KernelIdeal.Frame
import Idealize.ShloMosaic.Lib.StableHlo.Run
import Idealize.ShloMosaic.PureOps.Ideal

noncomputable section

namespace Cert.KernelIdeal.Hand

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- The input, reshaped. -/
theorem entry_x (c : Dev nD) : (V m c main_v0 : S4096x1024.Idx → Elt Ideal .f32)
    = shapeCast S4096x1024 (m ((c : Thread nD τ).loc main_arg0)) shapeCasts_S4096x1x1024_S4096x1024 := by
  show StableHlo.after hostOps0 (fun b => m (c, b)) (Proc.devRef .tc main_v0) = _
  after_results
  rfl

/-- The state, its first 2048 columns, reshaped. -/
theorem entry_s (c : Dev nD) : (V m c main_v2 : S4096x2048.Idx → Elt Ideal .f32)
    = shapeCast S4096x2048 (extractStridedSlice S4096x1x2048 ![0, 0, 0] (m ((c : Thread nD τ).loc main_arg1)) slices_S4096x1x4096_S4096x1x2048_0_0_0)
        shapeCasts_S4096x1x2048_S4096x2048 := by
  show StableHlo.after hostOps0 (fun b => m (c, b)) (Proc.devRef .tc main_v2) = _
  after_results
  rfl

/-- The input weights' first 2048 rows. -/
theorem entry_wi (c : Dev nD) : (V m c main_v4 : S2048x1024.Idx → Elt Ideal .bf16)
    = extractStridedSlice S2048x1024 ![0, 0] (m ((c : Thread nD τ).loc main_arg3)) slices_S4096x1024_S2048x1024_0_0 := by
  show StableHlo.after hostOps0 (fun b => m (c, b)) (Proc.devRef .tc main_v4) = _
  after_results
  rfl

/-- The reservoir weights' first 2048 rows and columns. -/
theorem entry_wr (c : Dev nD) : (V m c main_v6 : S2048x2048.Idx → Elt Ideal .bf16)
    = extractStridedSlice S2048x2048 ![0, 0] (m ((c : Thread nD τ).loc main_arg2)) slices_S4096x4096_S2048x2048_0_0 := by
  show StableHlo.after hostOps0 (fun b => m (c, b)) (Proc.devRef .tc main_v6) = _
  after_results
  rfl

/-- The gate weights' first 6144 rows. -/
theorem entry_wg (c : Dev nD) : (V m c main_v8 : S6144x1024.Idx → Elt Ideal .bf16)
    = extractStridedSlice S6144x1024 ![0, 0] (m ((c : Thread nD τ).loc main_arg4)) slices_S12288x1024_S6144x1024_0_0 := by
  show StableHlo.after hostOps0 (fun b => m (c, b)) (Proc.devRef .tc main_v8) = _
  after_results
  rfl

end Cert.KernelIdeal.Hand

end
-- ==== Proof.RefRead.lean ====
/-
  The reference's padded state is the cell function of its own five intermediate arrays.

  The reference reshapes the input to 4096 × 1024 (`X`), reshapes and slices the state to 4096 × 2048 (`S`), slices
  the three weight arrays (`Wi`, `Wr`, `Wg`), and then computes, entry by entry: the three contractions (the input
  and gate ones against a transposed weight slice, so entry (b, j) is Σₖ X(b, k) · W(j, k)), the logistic function
  spelt 1 / (1 + exp (−·)) — which is the logistic function on the extended reals by definition —, three column
  groups of it, the leaky update, the threshold, and a zero padding of the columns from 2048 on (the padding value
  is the integer zero converted, the real 0).
-/
import proofs.«115664_j89781996355837_1_alg».proof.Proof.Gen.ReferenceIdeal.Read
import proofs.«115664_j89781996355837_1_alg».proof.Proof.Cell
import Idealize.ShloMosaic.Lib.IdealHost
import Idealize.ShloMosaic.Lib.KernelVsHost

noncomputable section

namespace Cert.ReferenceIdeal.Hand

open Idealize.ShloMosaic Idealize.ShloMosaic.ValueIdx Cert.ReferenceIdeal Cert.ReferenceIdeal.Gen Cert.ReferenceIdeal.Read

variable (x0 : (⟨S4096x1x1024, .f32⟩ : BufTy).Contents (Elt Ideal)) (x1 : (⟨S4096x1x4096, .f32⟩ : BufTy).Contents (Elt Ideal))
  (x2 : (⟨S4096x4096, .f32⟩ : BufTy).Contents (Elt Ideal)) (x3 : (⟨S4096x1024, .f32⟩ : BufTy).Contents (Elt Ideal))
  (x4 : (⟨S12288x1024, .f32⟩ : BufTy).Contents (Elt Ideal))

/-- Entry (b, n) of the reference's gate quotient is the logistic function of Σₖ X(b, k) · Wg(n, k). -/
theorem gate_eq (b : Fin 4096) (n : Fin 6144) :
    val_main_v16 (F := Ideal) x0 x4 (ix2 b n)
      = Cell.gate (fun k => val_main_v0 (F := Ideal) x0 (ix2 b k)) (fun n k => val_main_v8 (F := Ideal) x4 (ix2 n k)) n := by
  have el : ∀ k : Fin 1024, lidx_main_v10 (ix2 b n) k = ix2 b k := fun k => funext fun a => Fin.ext (by
    match a with
    | ⟨0, _⟩ => rfl
    | ⟨1, _⟩ => rfl)
  have er : ∀ k : Fin 1024, idx_main_v9 (ridx_main_v10 (ix2 b n) k) = ix2 n k := fun k => funext fun a => Fin.ext (by
    match a with
    | ⟨0, _⟩ => rfl
    | ⟨1, _⟩ => rfl)
  rw [val_main_v16_apply, val_main_v15_apply, val_main_cst_0_apply, val_main_v14_apply, val_main_v13_apply, val_main_cst_apply,
    val_main_v12_apply, val_main_v11_apply, val_main_v10_apply]
  simp only [val_main_v9_apply, el, er]
  simp only [Cell.gate, Ideal.logistic, Ideal.ofBits_def, Ideal.hostDivf_def, Ideal.addf_def, Ideal.hostUnary_exp_def,
    Ideal.hostNegf_def, Ideal.negf_def, Ideal.ofBits_one_f32]

/-- Entry (b, j) of the reference's selected value is entry `j` of the new state of row `b`. -/
theorem state_eq (b : Fin 4096) (j : Fin 2048) :
    val_main_v34 (F := Ideal) x0 x1 x2 x3 x4 (ix2 b j)
      = Cell.next (fun k => val_main_v0 (F := Ideal) x0 (ix2 b k)) (fun k => val_main_v2 (F := Ideal) x1 (ix2 b k))
          (fun j k => val_main_v3 (F := Ideal) x3 (ix2 j k)) (fun k j => val_main_v6 (F := Ideal) x2 (ix2 k j))
          (fun n k => val_main_v8 (F := Ideal) x4 (ix2 n k)) j := by
  have e17 : idx_main_v17 (ix2 b j) = ix2 b ⟨j.val, by have := j.isLt; omega⟩ := funext fun a => Fin.ext (by
    match a with
    | ⟨0, _⟩ => rfl
    | ⟨1, _⟩ => rfl)
  have e18 : idx_main_v18 (ix2 b j) = ix2 b ⟨j.val + 2048, by have := j.isLt; omega⟩ := funext fun a => Fin.ext (by
    match a with
    | ⟨0, _⟩ => rfl
    | ⟨1, _⟩ => show 2048 + j.val = j.val + 2048; omega)
  have e19 : idx_main_v19 (ix2 b j) = ix2 b ⟨j.val + 4096, by have := j.isLt; omega⟩ := funext fun a => Fin.ext (by
    match a with
    | ⟨0, _⟩ => rfl
    | ⟨1, _⟩ => show 4096 + j.val = j.val + 4096; omega)
  have el5 : ∀ k : Fin 1024, lidx_main_v5 (ix2 b j) k = ix2 b k := fun k => funext fun a => Fin.ext (by
    match a with
    | ⟨0, _⟩ => rfl
    | ⟨1, _⟩ => rfl)
  have er5 : ∀ k : Fin 1024, idx_main_v4 (ridx_main_v5 (ix2 b j) k) = ix2 j k := fun k => funext fun a => Fin.ext (by
    match a with
    | ⟨0, _⟩ => rfl
    | ⟨1, _⟩ => rfl)
  have el7 : ∀ k : Fin 2048, lidx_main_v7 (ix2 b j) k = ix2 b k := fun k => funext fun a => Fin.ext (by
    match a with
    | ⟨0, _⟩ => rfl
    | ⟨1, _⟩ => rfl)
  have er7 : ∀ k : Fin 2048, ridx_main_v7 (ix2 b j) k = ix2 k j := fun k => funext fun a => Fin.ext (by
    match a with
    | ⟨0, _⟩ => rfl
    | ⟨1, _⟩ => rfl)
  rw [val_main_v34_apply, val_main_v31_apply, val_main_v33_apply, val_main_v30_apply, val_main_cst_3_apply, val_main_v32_apply,
    val_main_cst_4_apply, val_main_v29_apply, val_main_v19_apply, val_main_v28_apply, val_main_v22_apply, val_main_v21_apply,
    val_main_cst_1_apply, val_main_v20_apply, val_main_v18_apply, val_main_v27_apply, val_main_v26_apply, val_main_cst_2_apply,
    val_main_v25_apply, val_main_v24_apply, val_main_v17_apply, val_main_v23_apply, val_main_v5_apply, val_main_v7_apply,
    e17, e18, e19]
  simp only [val_main_v4_apply, el5, er5, el7, er7, gate_eq]
  simp only [Cell.next, Cell.spike, Cell.leaky, Cell.drive, Ideal.ofBits_def, Ideal.mulf_def, Ideal.addf_def, Ideal.subf_def,
    Ideal.hostUnary_tanh_def]

/-- The reference's padded array is the cell function of its reshaped input, its reshaped and sliced state and its
    three weight slices. -/
theorem padded_eq :
    val_main_v35 (F := Ideal) x0 x1 x2 x3 x4
      = Cell.padded (val_main_v0 (F := Ideal) x0) (val_main_v2 (F := Ideal) x1) (val_main_v3 (F := Ideal) x3)
          (val_main_v6 (F := Ideal) x2) (val_main_v8 (F := Ideal) x4) := by
  funext i
  obtain ⟨b, j, rfl⟩ : ∃ (b : Fin 4096) (j : Fin 4096), i = ix2 b j := ⟨i 0, i 1, eq_ix2 i⟩
  unfold val_main_v35
  by_cases h : j.val < 2048
  · rw [Cell.padded_state _ _ _ _ _ b j h]
    refine (pad_apply_of_inside ![0, 0] ![0, 2048] ![0, 0] _ _ pads_S4096x2048_S4096x4096_000_020480 h_S_ (ix2 b j)
      (ix2 b ⟨j.val, h⟩) (fun a => ?_)).trans (state_eq x0 x1 x2 x3 x4 b ⟨j.val, h⟩)
    match a with
    | ⟨0, _⟩ => show b.val = 0 + b.val * (0 + 1); omega
    | ⟨1, _⟩ => show j.val = 0 + j.val * (0 + 1); omega
  · rw [Cell.padded_zero _ _ _ _ _ b j h]
    refine (pad_apply_of_not_inside (s := S4096x2048) (t := S4096x4096) ![0, 0] ![0, 2048] ![0, 0] (val_main_v34 (F := Ideal) x0 x1 x2 x3 x4)
      (val_main_call1_v0 (F := Ideal)) pads_S4096x2048_S4096x4096_000_020480 h_S_ (ix2 b j) 1 ?_).trans ?_
    · show ¬(0 ≤ j.val ∧ (j.val - 0) % (0 + 1) = 0 ∧ (j.val - 0) / (0 + 1) < 2048)
      omega
    · show ((((0#32 : BitVec 32).toInt : ℤ) : ℝ) : EReal) = 0
      simp

end Cert.ReferenceIdeal.Hand

end
-- ==== Proof.Bridge.lean ====
/-
  The two programs feed the cell function the same five arrays.  From the same arguments, the arrays the kernel's
  region finds are the reference's own intermediates: the reshaped input (one reshape on both sides), the three weight
  slices (the kernel's rounding to half precision is the identity on the extended reals), and the state's first 2048
  columns as a 4096 × 2048 array — the kernel slices the 4096 × 1 × 4096 array and then drops the unit axis, the
  reference drops the unit axis and then slices: entry (b, j) of either is entry (b, 0, j) of the argument.
-/
import proofs.«115664_j89781996355837_1_alg».proof.Proof.KernelEntry
import proofs.«115664_j89781996355837_1_alg».proof.Proof.KernelRun
import proofs.«115664_j89781996355837_1_alg».proof.Proof.RefRead

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- Slicing then dropping the unit axis is dropping it then slicing. -/
theorem state_cols (x1 : S4096x1x4096.Idx → EReal) :
    shapeCast S4096x2048 (extractStridedSlice S4096x1x2048 ![0, 0, 0] x1 slices_S4096x1x4096_S4096x1x2048_0_0_0) shapeCasts_S4096x1x2048_S4096x2048
      = Cert.ReferenceIdeal.Read.val_main_v2 (F := Ideal) x1 := by
  funext i
  obtain ⟨b, j, rfl⟩ : ∃ (b : Fin 4096) (j : Fin 2048), i = ix2 b j := ⟨i 0, i 1, eq_ix2 i⟩
  have hj : j.val < 2048 := j.isLt
  have hb : b.val < 4096 := b.isLt
  rw [Cert.ReferenceIdeal.Read.val_main_v2_apply, Cert.ReferenceIdeal.Read.val_main_v1_apply]
  have e : Cert.ReferenceIdeal.Read.idx_main_v1 (Cert.ReferenceIdeal.Read.idx_main_v2 (ix2 b j))
      = ix3 b (0 : Fin 1) ⟨j.val, by omega⟩ := funext fun a => Fin.ext (by
    match a with
    | ⟨0, _⟩ => show (b.val * 4096 + j.val) / 4096 = b.val; omega
    | ⟨1, _⟩ => rfl
    | ⟨2, _⟩ => show (b.val * 4096 + j.val) % 4096 = j.val; omega)
  rw [e]
  refine (shapeCast_apply _ shapeCasts_S4096x1x2048_S4096x2048 (ix2 b j) (ix3 b (0 : Fin 1) j) ?_).trans ?_
  · rewrite [Shape.rowMajor_val_three, Shape.rowMajor_val_two]
    show (b.val * 1 + 0) * 2048 + j.val = b.val * 2048 + j.val
    omega
  · refine extractStridedSlice_apply ![0, 0, 0] x1 slices_S4096x1x4096_S4096x1x2048_0_0_0 (ix3 b (0 : Fin 1) j)
      (ix3 b (0 : Fin 1) ⟨j.val, by omega⟩) (fun a => ?_)
    match a with
    | ⟨0, _⟩ => show b.val = 0 + b.val; omega
    | ⟨1, _⟩ => rfl
    | ⟨2, _⟩ => show j.val = 0 + j.val; omega

/-- The kernel's result array is the reference's padded array of the same arguments. -/
theorem result_eq (c : Dev nD) :
    result m c = Cert.ReferenceIdeal.Read.val_main_v35 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  have hx : arrX m c = Cert.ReferenceIdeal.Read.val_main_v0 (F := Ideal) (m ((c : Thread nD τ).loc main_arg0)) :=
    (entry_x m c).trans rfl
  have hs : arrS m c = Cert.ReferenceIdeal.Read.val_main_v2 (F := Ideal) (m ((c : Thread nD τ).loc main_arg1)) :=
    (entry_s m c).trans (state_cols _)
  have hwi : arrWi m c = Cert.ReferenceIdeal.Read.val_main_v3 (F := Ideal) (m ((c : Thread nD τ).loc main_arg3)) :=
    (entry_wi m c).trans rfl
  have hwr : arrWr m c = Cert.ReferenceIdeal.Read.val_main_v6 (F := Ideal) (m ((c : Thread nD τ).loc main_arg2)) :=
    (entry_wr m c).trans rfl
  have hwg : arrWg m c = Cert.ReferenceIdeal.Read.val_main_v8 (F := Ideal) (m ((c : Thread nD τ).loc main_arg4)) :=
    (entry_wg m c).trans rfl
  unfold result
  rw [hx, hs, hwi, hwr, hwg]
  exact (Cert.ReferenceIdeal.Hand.padded_eq _ _ _ _ _).symm

end Cert.Proof.Bridge

end
-- ==== Proof.lean ====
/-
  A gated leaky-reservoir cell step on a batch of 4096 rows: the kernel program and the reference compute the same
  array on the extended reals.

  For each batch row the new state (2048 entries) is

      v_j = o_j · ( c₀ · (f_j · s_j) + c₁ · tanh ( i_j · ( Σₖ x_k · wi_{j,k} + Σₖ s_k · wr_{k,j} ) ) ),
      out_j = if v_j > ½ then v_j − ½ else v_j,

  with the three gates the logistic function of the input row against three groups of gate-weight rows, padded with
  zeros to 4096 entries (Proof/Cell.lean).  The kernel computes it block by block — 128 rows per grid point, the
  weights resident —, rounding its matrix operands to half precision, which is the identity on the extended reals,
  accumulating each product from zero, applying the logistic function as one operation, and writing the zero columns
  itself; the reference computes whole-array contractions, spells the logistic function as 1 / (1 + exp (−·)), and
  pads.  Each side is shown to be the cell function of the same five arrays, entry by entry (Proof/KernelCell.lean …
  Proof/KernelRun.lean for the kernel, Proof/RefRead.lean for the reference, Proof/Bridge.lean for the five arrays);
  both programs then insert the same unit axis.  No law beyond 0 + a = a and the commutative, associative sums of the
  extended reals is used, so finiteness of the inputs is never needed.  The idealization rewrote nothing.
-/
import proofs.«115664_j89781996355837_1_alg».proof.Defs
import proofs.«115664_j89781996355837_1_alg».proof.Proof.Gen.Kernel
import proofs.«115664_j89781996355837_1_alg».proof.Proof.Gen.Kernel.Skeleton
import proofs.«115664_j89781996355837_1_alg».proof.Proof.Gen.Kernel.Launch
import proofs.«115664_j89781996355837_1_alg».proof.Proof.Gen.Kernel.Points
import proofs.«115664_j89781996355837_1_alg».proof.Proof.Gen.Kernel.Frame
import proofs.«115664_j89781996355837_1_alg».proof.Proof.Gen.KernelIdeal
import proofs.«115664_j89781996355837_1_alg».proof.Proof.Gen.KernelIdeal.Skeleton
import proofs.«115664_j89781996355837_1_alg».proof.Proof.Gen.KernelIdeal.Launch
import proofs.«115664_j89781996355837_1_alg».proof.Proof.Gen.KernelIdeal.Points
import proofs.«115664_j89781996355837_1_alg».proof.Proof.Gen.KernelIdeal.Frame
import proofs.«115664_j89781996355837_1_alg».proof.Proof.Gen.ReferenceIdeal
import proofs.«115664_j89781996355837_1_alg».proof.Proof.Gen.ReferenceIdeal.Run
import proofs.«115664_j89781996355837_1_alg».proof.Proof.Gen.ReferenceIdeal.Read
import proofs.«115664_j89781996355837_1_alg».proof.Proof.Gen.Pre_finite_inputs
import proofs.«115664_j89781996355837_1_alg».proof.Proof.KernelRun
import proofs.«115664_j89781996355837_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel program's result (the padded new state of the arrays its region finds, a unit
    axis inserted) and the reference's (its padded array, the same unit axis inserted) are one array: the two padded
    arrays are the cell function of the same five arrays. -/
theorem algebraic : Cert.algebraic_KernelIdeal_ReferenceIdeal := by
  intro m ρ m' ρ' _ hagree
  refine ⟨fun c => Cert.KernelIdeal.Hand.output m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2]
  unfold Cert.ReferenceIdeal.Read.val_main_v36 Cert.KernelIdeal.Hand.output
  exact congrArg _ (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
